-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S2x1600000 : Shape := ⟨2, ![2, 1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S64 .f32) (main_arg5 : FVec F S1600000 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1600000 .f32 := Host.absf main_arg5
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  main_v28

def fn {F : FTy → Type} [FloatOps F] (main_arg0 : FVec F S100000x512 .f32) (main_arg1 : FVec F S512x128 .f32) (main_arg2 : FVec F S128 .f32) (main_arg3 : FVec F S128x64 .f32) (main_arg4 : FVec F S64 .f32) (main_arg5 : FVec F S1600000 .f32) (main_arg6 : IVec S2x1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_v13 main_v16
-- ==== Kernel.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S2x1600000 : Shape := ⟨2, ![2, 1600000]⟩
abbrev S100000x128 : Shape := ⟨2, ![100000, 128]⟩
abbrev S2000x512 : Shape := ⟨2, ![2000, 512]⟩
abbrev S2000x128 : Shape := ⟨2, ![2000, 128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S4000x128 : Shape := ⟨2, ![4000, 128]⟩
abbrev S4000x64 : Shape := ⟨2, ![4000, 64]⟩
abbrev S1600000x64 : Shape := ⟨2, ![1600000, 64]⟩
abbrev S1x64 : Shape := ⟨2, ![1, 64]⟩

abbrev nBuf : Space → Nat
  | .hbm => 153
  | .vmem => 10
  | .smem => 0
  | _ => 0

abbrev hbmTy0_0 (i : Nat) : BufTy := match i % 128 with
  | 0 => ⟨S100000x512, .f32⟩
  | 1 => ⟨S512x128, .f32⟩
  | 2 => ⟨S128, .f32⟩
  | 3 => ⟨S128x64, .f32⟩
  | 4 => ⟨S64, .f32⟩
  | 5 => ⟨S1600000, .f32⟩
  | 6 => ⟨S2x1600000, .i32⟩
  | 7 => ⟨S100000x128, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x64, .f32⟩
  | 75 => ⟨S1x1600000, .i32⟩
  | 76 => ⟨S1600000, .i32⟩
  | 77 => ⟨S1x1600000, .i32⟩
  | 78 => ⟨S1600000, .i32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S1600000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S1600000x1, .f32⟩
  | 124 => ⟨S1600000x64, .f32⟩
  | 125 => ⟨S1600000x64, .f32⟩
  | 126 => ⟨S_, .f32⟩
  | 127 => ⟨S100000x64, .f32⟩
  | _ => ⟨S100000x512, .f32⟩

abbrev hbmTy0_1 (i : Nat) : BufTy := match i % 128 with
  | 0 => ⟨S1600000x1, .i32⟩
  | 1 => ⟨S100000x64, .f32⟩
  | 2 => ⟨S100000, .f32⟩
  | 3 => ⟨S100000x1, .f32⟩
  | 4 => ⟨S100000x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S100000, .f32⟩
  | 12 => ⟨S_, .f32⟩
  | 13 => ⟨S100000, .f32⟩
  | 14 => ⟨S100000, .f32⟩
  | 15 => ⟨S100000x1, .f32⟩
  | 16 => ⟨S100000x64, .f32⟩
  | 17 => ⟨S100000x64, .f32⟩
  | 18 => ⟨S100000x64, .f32⟩
  | 19 => ⟨S_, .f32⟩
  | 20 => ⟨S100000, .f32⟩
  | 21 => ⟨S100000x1, .f32⟩
  | 22 => ⟨S100000x1, .f32⟩
  | 23 => ⟨S100000x64, .f32⟩
  | 24 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S4000x128, .f32⟩
  | .local _ .vmem, ⟨6, _⟩ => ⟨S4000x128, .f32⟩
  | .local _ .vmem, ⟨7, _⟩ => ⟨S128x64, .f32⟩
  | .local _ .vmem, ⟨8, _⟩ => ⟨S4000x64, .f32⟩
  | .local _ .vmem, ⟨9, _⟩ => ⟨S4000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_17 : Ref sig .tc := ⟨.hbm, 114, rfl⟩
abbrev main_v82 : Ref sig .tc := ⟨.hbm, 115, rfl⟩
abbrev main_v83 : Ref sig .tc := ⟨.hbm, 116, rfl⟩
abbrev main_c_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_call3_cst : Ref sig .tc := ⟨.hbm, 138, rfl⟩
abbrev main_call3_v0 : Ref sig .tc := ⟨.hbm, 139, rfl⟩
abbrev main_call3_cst_0 : Ref sig .tc := ⟨.hbm, 140, rfl⟩
abbrev main_call3_v1 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_v6 : Ref sig .tc := ⟨.hbm, 146, rfl⟩
abbrev main_call3_cst_1 : Ref sig .tc := ⟨.hbm, 147, rfl⟩
abbrev main_call3_v7 : Ref sig .tc := ⟨.hbm, 148, rfl⟩
abbrev main_call3_v8 : Ref sig .tc := ⟨.hbm, 149, rfl⟩
abbrev main_call3_v9 : Ref sig .tc := ⟨.hbm, 150, rfl⟩
abbrev main_call3_v10 : Ref sig .tc := ⟨.hbm, 151, rfl⟩
abbrev main_v103 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  dot_S2000x512_S512x128_S2000x128_1_0_0_1_n_n_wf : DotDims.WF S2000x512 S512x128 S2000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S2x1600000 : Shape := ⟨2, ![2, 1600000]⟩
abbrev S100000x128 : Shape := ⟨2, ![100000, 128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 153
  | .vmem => 0
  | .smem => 0
  | _ => 0

abbrev hbmTy0_0 (i : Nat) : BufTy := match i % 128 with
  | 0 => ⟨S100000x512, .f32⟩
  | 1 => ⟨S512x128, .f32⟩
  | 2 => ⟨S128, .f32⟩
  | 3 => ⟨S128x64, .f32⟩
  | 4 => ⟨S64, .f32⟩
  | 5 => ⟨S1600000, .f32⟩
  | 6 => ⟨S2x1600000, .i32⟩
  | 7 => ⟨S100000x128, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x64, .f32⟩
  | 75 => ⟨S1x1600000, .i32⟩
  | 76 => ⟨S1600000, .i32⟩
  | 77 => ⟨S1x1600000, .i32⟩
  | 78 => ⟨S1600000, .i32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S1600000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000, .f32⟩
  | 113 => ⟨S1600000, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S1600000x1, .f32⟩
  | 124 => ⟨S1600000x64, .f32⟩
  | 125 => ⟨S1600000x64, .f32⟩
  | 126 => ⟨S_, .f32⟩
  | 127 => ⟨S100000x64, .f32⟩
  | _ => ⟨S100000x512, .f32⟩

abbrev hbmTy0_1 (i : Nat) : BufTy := match i % 128 with
  | 0 => ⟨S1600000x1, .i32⟩
  | 1 => ⟨S100000x64, .f32⟩
  | 2 => ⟨S100000, .f32⟩
  | 3 => ⟨S100000x1, .f32⟩
  | 4 => ⟨S100000x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S100000, .f32⟩
  | 12 => ⟨S_, .f32⟩
  | 13 => ⟨S100000, .f32⟩
  | 14 => ⟨S100000, .f32⟩
  | 15 => ⟨S100000x1, .f32⟩
  | 16 => ⟨S100000x64, .f32⟩
  | 17 => ⟨S100000x64, .f32⟩
  | 18 => ⟨S100000x64, .f32⟩
  | 19 => ⟨S_, .f32⟩
  | 20 => ⟨S100000, .f32⟩
  | 21 => ⟨S100000x1, .f32⟩
  | 22 => ⟨S100000x1, .f32⟩
  | 23 => ⟨S100000x64, .f32⟩
  | 24 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_17 : Ref sig .tc := ⟨.hbm, 114, rfl⟩
abbrev main_v82 : Ref sig .tc := ⟨.hbm, 115, rfl⟩
abbrev main_v83 : Ref sig .tc := ⟨.hbm, 116, rfl⟩
abbrev main_c_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_call3_cst : Ref sig .tc := ⟨.hbm, 138, rfl⟩
abbrev main_call3_v0 : Ref sig .tc := ⟨.hbm, 139, rfl⟩
abbrev main_call3_cst_0 : Ref sig .tc := ⟨.hbm, 140, rfl⟩
abbrev main_call3_v1 : Ref sig .tc := ⟨.hbm, 141, rfl⟩
abbrev main_call3_v2 : Ref sig .tc := ⟨.hbm, 142, rfl⟩
abbrev main_call3_v3 : Ref sig .tc := ⟨.hbm, 143, rfl⟩
abbrev main_call3_v4 : Ref sig .tc := ⟨.hbm, 144, rfl⟩
abbrev main_call3_v5 : Ref sig .tc := ⟨.hbm, 145, rfl⟩
abbrev main_call3_v6 : Ref sig .tc := ⟨.hbm, 146, rfl⟩
abbrev main_call3_cst_1 : Ref sig .tc := ⟨.hbm, 147, rfl⟩
abbrev main_call3_v7 : Ref sig .tc := ⟨.hbm, 148, rfl⟩
abbrev main_call3_v8 : Ref sig .tc := ⟨.hbm, 149, rfl⟩
abbrev main_call3_v9 : Ref sig .tc := ⟨.hbm, 150, rfl⟩
abbrev main_call3_v10 : Ref sig .tc := ⟨.hbm, 151, rfl⟩
abbrev main_v103 : Ref sig .tc := ⟨.hbm, 152, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  dot_S100000x512_S512x128_S100000x128_1_0_0_1_n_n_wf : DotDims.WF S100000x512 S512x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel program's run, with what every buffer holds at the end.

  The program is ten segments: a pipelined region, four stretches of host operations, a second region, four more
  stretches.  Folding the segments over the launch memory gives the contents of every buffer at each boundary: a stretch
  rewrites the buffers its operations write, a region rewrites its arrays with what its write-backs leave.  Every weakly
  fair execution terminates without a fault, and in the final memory every buffer that lives for the whole program
  holds the last boundary's contents.  In particular the result buffer holds the last boundary's contents there, and
  the seven argument buffers, which no segment writes, hold what they were launched with.
-/
import proofs.«138203_j57440892616779_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and any property of the final memory that
    follows from "every whole-program buffer holds the last boundary's contents" holds of it. -/
theorem run_to {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- The run with the result kept: at the end the result buffer holds the last boundary's contents, and each argument
    buffer what it was launched with. -/
theorem run_result : θ_run defs (onTc (τ := τ) (main (F := F))) ⟨m, fun _ => 0, ρ⟩ (fun r => ∀ c : Dev nD,
      r.2.mem ((c.tc : Thread nD τ).loc main_v103) = W10 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_to m ρ (fun s h c =>
    ⟨h c _ (mem_uc main_v103 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c)⟩)

end Cert.KernelIdeal.RunValue

end
-- ==== Proof.ReferenceRun.lean ====
/-
  The idealized reference program's run.

  The reference is a straight line of 146 host operations (the three functions it calls — the select behind
  jnp.where, relu, log_softmax — stand in their calls' places, operation by operation).  Every weakly fair execution
  terminates without a fault, and in the final memory every buffer holds what folding the operations over the launch
  memory leaves there: an operation rewrites its result buffer with its function of its operand buffers and leaves
  every other buffer alone.  The result buffer is left as that fold, unevaluated; the argument buffers, which no
  operation writes, are read back to their launch contents.
-/
import proofs.«138203_j57440892616779_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 146 operations, in order (a called function's operations stand in its call's place, spelt `TRef.…`). -/
abbrev ops : List (HloOp τ sig (Elt F)) :=
  [ binary main_arg0 main_arg1 main_v0 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    unary main_arg6 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    unary main_arg6 main_v3 ((extractStridedSlice S1x1600000 ![1, 0] · slices_S2x1600000_S1x1600000_1_0) : (⟨S2x1600000, .i32⟩ : BufTy).Contents (Elt F) → (⟨S1x1600000, .i32⟩ : BufTy).Contents (Elt F)),
    reshape main_v3 main_v4 rfl shapeCasts_S1x1600000_S1600000,
    nullary main_cst (constant S_ .f32 0x00000000#32),
    unary main_cst main_v5 (broadcastInDim S100000 ![] bcast_S_S100000 : (⟨S_, .f32⟩ : BufTy).Contents (Elt F) → (⟨S100000, .f32⟩ : BufTy).Contents (Elt F)),
    unary main_v2 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_arg5 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_0 (constant S_ .f32 0x3F800000#32),
    unary main_cst_0 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    nullary main_cst_1 (constant S_ .f32 0x00000000#32),
    unary main_cst_1 main_v10 (broadcastInDim S100000 ![] bcast_S_S100000 : (⟨S_, .f32⟩ : BufTy).Contents (Elt F) → (⟨S100000, .f32⟩ : BufTy).Contents (Elt F)),
    binary main_v9 main_v10 main_v11 (cmpf .ogt : (⟨S100000, .f32⟩ : BufTy).Contents (Elt F) → (⟨S100000, .f32⟩ : BufTy).Contents (Elt F) → (⟨S100000, .i1⟩ : BufTy).Contents (Elt F)),
    unary main_v9 main_v12 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v11) (TRef.of (T := ⟨S100000, .f32⟩) main_v12) (TRef.of (T := ⟨S100000, .f32⟩) main_call0_v1) (TRef.of (T := ⟨S100000, .f32⟩) main_v13) select,
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v2 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v16 (broadcastInDim S1600000 ![] bcast_S_S1600000 : (⟨S_, .i32⟩ : BufTy).Contents (Elt F) → (⟨S1600000, .i32⟩ : BufTy).Contents (Elt F)),
    binary main_v2 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v2 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v20 main_arg5 main_v21 (mulf : (⟨S1600000, .f32⟩ : BufTy).Contents (Elt F) → (⟨S1600000, .f32⟩ : BufTy).Contents (Elt F) → (⟨S1600000, .f32⟩ : BufTy).Contents (Elt F)),
    nullary main_c_4 (constantI S_ 32 0#32),
    unary main_c_4 main_v22 (broadcastInDim S1600000 ![] bcast_S_S1600000 : (⟨S_, .i32⟩ : BufTy).Contents (Elt F) → (⟨S1600000, .i32⟩ : BufTy).Contents (Elt F)),
    binary main_v4 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v24 (broadcastInDim S1600000 ![] bcast_S_S1600000 : (⟨S_, .i32⟩ : BufTy).Contents (Elt F) → (⟨S1600000, .i32⟩ : BufTy).Contents (Elt F)),
    binary main_v4 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v4 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v13 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v21 main_v28 main_v29 (mulf : (⟨S1600000, .f32⟩ : BufTy).Contents (Elt F) → (⟨S1600000, .f32⟩ : BufTy).Contents (Elt F) → (⟨S1600000, .f32⟩ : BufTy).Contents (Elt F)),
    nullary main_c_6 (constantI S_ 32 0#32),
    unary main_c_6 main_v30 (broadcastInDim S1600000 ![] bcast_S_S1600000 : (⟨S_, .i32⟩ : BufTy).Contents (Elt F) → (⟨S1600000, .i32⟩ : BufTy).Contents (Elt F)),
    binary main_v4 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v32 (broadcastInDim S1600000 ![] bcast_S_S1600000 : (⟨S_, .i32⟩ : BufTy).Contents (Elt F) → (⟨S1600000, .i32⟩ : BufTy).Contents (Elt F)),
    binary main_v4 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v4 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v0 main_v35 main_v36 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v29 main_v37 (broadcastInDim S1600000x1 ![0] bcast_S1600000_S1600000x1_0 : (⟨S1600000, .f32⟩ : BufTy).Contents (Elt F) → (⟨S1600000x1, .f32⟩ : BufTy).Contents (Elt F)),
    unary main_v37 main_v38 (broadcastInDim S1600000x128 ![0, 1] bcast_S1600000x1_S1600000x128_0_1 : (⟨S1600000x1, .f32⟩ : BufTy).Contents (Elt F) → (⟨S1600000x128, .f32⟩ : BufTy).Contents (Elt F)),
    binary main_v36 main_v38 main_v39 (mulf : (⟨S1600000x128, .f32⟩ : BufTy).Contents (Elt F) → (⟨S1600000x128, .f32⟩ : BufTy).Contents (Elt F) → (⟨S1600000x128, .f32⟩ : BufTy).Contents (Elt F)),
    nullary main_cst_8 (constant S_ .f32 0x00000000#32),
    unary main_cst_8 main_v40 (broadcastInDim S100000x128 ![] bcast_S_S100000x128 : (⟨S_, .f32⟩ : BufTy).Contents (Elt F) → (⟨S100000x128, .f32⟩ : BufTy).Contents (Elt F)),
    unary main_v2 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v13 main_v13 main_v43 (mulf : (⟨S100000, .f32⟩ : BufTy).Contents (Elt F) → (⟨S100000, .f32⟩ : BufTy).Contents (Elt F) → (⟨S100000, .f32⟩ : BufTy).Contents (Elt F)),
    unary main_v43 main_v44 (broadcastInDim S100000x1 ![0] bcast_S100000_S100000x1_0 : (⟨S100000, .f32⟩ : BufTy).Contents (Elt F) → (⟨S100000x1, .f32⟩ : BufTy).Contents (Elt F)),
    unary main_v44 main_v45 (broadcastInDim S100000x128 ![0, 1] bcast_S100000x1_S100000x128_0_1 : (⟨S100000x1, .f32⟩ : BufTy).Contents (Elt F) → (⟨S100000x128, .f32⟩ : BufTy).Contents (Elt F)),
    binary main_v0 main_v45 main_v46 (mulf : (⟨S100000x128, .f32⟩ : BufTy).Contents (Elt F) → (⟨S100000x128, .f32⟩ : BufTy).Contents (Elt F) → (⟨S100000x128, .f32⟩ : BufTy).Contents (Elt F)),
    binary main_v42 main_v46 main_v47 (addf : (⟨S100000x128, .f32⟩ : BufTy).Contents (Elt F) → (⟨S100000x128, .f32⟩ : BufTy).Contents (Elt F) → (⟨S100000x128, .f32⟩ : BufTy).Contents (Elt F)),
    unary main_arg2 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v47 main_v49 main_v50 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v50) (TRef.of (T := ⟨S100000x128, .f32⟩) main_call1_v0) (TRef.of (T := ⟨S100000x128, .f32⟩) main_v51) maximumf,
    binary main_v51 main_arg3 main_v52 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg6 main_v53 ((extractStridedSlice S1x1600000 ![0, 0] · slices_S2x1600000_S1x1600000_0_0) : (⟨S2x1600000, .i32⟩ : BufTy).Contents (Elt F) → (⟨S1x1600000, .i32⟩ : BufTy).Contents (Elt F)),
    reshape main_v53 main_v54 rfl shapeCasts_S1x1600000_S1600000,
    unary main_arg6 main_v55 ((extractStridedSlice S1x1600000 ![1, 0] · slices_S2x1600000_S1x1600000_1_0) : (⟨S2x1600000, .i32⟩ : BufTy).Contents (Elt F) → (⟨S1x1600000, .i32⟩ : BufTy).Contents (Elt F)),
    reshape main_v55 main_v56 rfl shapeCasts_S1x1600000_S1600000,
    nullary main_cst_9 (constant S_ .f32 0x00000000#32),
    unary main_cst_9 main_v57 (broadcastInDim S100000 ![] bcast_S_S100000 : (⟨S_, .f32⟩ : BufTy).Contents (Elt F) → (⟨S100000, .f32⟩ : BufTy).Contents (Elt F)),
    unary main_v54 main_v58 (broadcastInDim S1600000x1 ![0] bcast_S1600000_S1600000x1_0 : (⟨S1600000, .i32⟩ : BufTy).Contents (Elt F) → (⟨S1600000x1, .i32⟩ : BufTy).Contents (Elt F)),
    ternary main_v57 main_v58 main_arg5 main_v59 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_10 (constant S_ .f32 0x3F800000#32),
    unary main_cst_10 main_v60 (broadcastInDim S100000 ![] bcast_S_S100000 : (⟨S_, .f32⟩ : BufTy).Contents (Elt F) → (⟨S100000, .f32⟩ : BufTy).Contents (Elt F)),
    binary main_v59 main_v60 main_v61 (addf : (⟨S100000, .f32⟩ : BufTy).Contents (Elt F) → (⟨S100000, .f32⟩ : BufTy).Contents (Elt F) → (⟨S100000, .f32⟩ : BufTy).Contents (Elt F)),
    nullary main_cst_11 (constant S_ .f32 0x00000000#32),
    unary main_cst_11 main_v62 (broadcastInDim S100000 ![] bcast_S_S100000 : (⟨S_, .f32⟩ : BufTy).Contents (Elt F) → (⟨S100000, .f32⟩ : BufTy).Contents (Elt F)),
    binary main_v61 main_v62 main_v63 (cmpf .ogt : (⟨S100000, .f32⟩ : BufTy).Contents (Elt F) → (⟨S100000, .f32⟩ : BufTy).Contents (Elt F) → (⟨S100000, .i1⟩ : BufTy).Contents (Elt F)),
    unary main_v61 main_v64 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v63) (TRef.of (T := ⟨S100000, .f32⟩) main_v64) (TRef.of (T := ⟨S100000, .f32⟩) main_call2_v1) (TRef.of (T := ⟨S100000, .f32⟩) main_v65) select,
    nullary main_c_13 (constantI S_ 32 0#32),
    unary main_c_13 main_v66 (broadcastInDim S1600000 ![] bcast_S_S1600000 : (⟨S_, .i32⟩ : BufTy).Contents (Elt F) → (⟨S1600000, .i32⟩ : BufTy).Contents (Elt F)),
    binary main_v54 main_v66 main_v67 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v68 (broadcastInDim S1600000 ![] bcast_S_S1600000 : (⟨S_, .i32⟩ : BufTy).Contents (Elt F) → (⟨S1600000, .i32⟩ : BufTy).Contents (Elt F)),
    binary main_v54 main_v68 main_v69 (addi : (⟨S1600000, .i32⟩ : BufTy).Contents (Elt F) → (⟨S1600000, .i32⟩ : BufTy).Contents (Elt F) → (⟨S1600000, .i32⟩ : BufTy).Contents (Elt F)),
    ternary main_v67 main_v69 main_v54 main_v70 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v70 main_v71 (broadcastInDim S1600000x1 ![0] bcast_S1600000_S1600000x1_0 : (⟨S1600000, .i32⟩ : BufTy).Contents (Elt F) → (⟨S1600000x1, .i32⟩ : BufTy).Contents (Elt F)),
    binary main_v65 main_v71 main_v72 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v72 main_arg5 main_v73 (mulf : (⟨S1600000, .f32⟩ : BufTy).Contents (Elt F) → (⟨S1600000, .f32⟩ : BufTy).Contents (Elt F) → (⟨S1600000, .f32⟩ : BufTy).Contents (Elt F)),
    nullary main_c_15 (constantI S_ 32 0#32),
    unary main_c_15 main_v74 (broadcastInDim S1600000 ![] bcast_S_S1600000 : (⟨S_, .i32⟩ : BufTy).Contents (Elt F) → (⟨S1600000, .i32⟩ : BufTy).Contents (Elt F)),
    binary main_v56 main_v74 main_v75 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v76 (broadcastInDim S1600000 ![] bcast_S_S1600000 : (⟨S_, .i32⟩ : BufTy).Contents (Elt F) → (⟨S1600000, .i32⟩ : BufTy).Contents (Elt F)),
    binary main_v56 main_v76 main_v77 (addi : (⟨S1600000, .i32⟩ : BufTy).Contents (Elt F) → (⟨S1600000, .i32⟩ : BufTy).Contents (Elt F) → (⟨S1600000, .i32⟩ : BufTy).Contents (Elt F)),
    ternary main_v75 main_v77 main_v56 main_v78 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v78 main_v79 (broadcastInDim S1600000x1 ![0] bcast_S1600000_S1600000x1_0 : (⟨S1600000, .i32⟩ : BufTy).Contents (Elt F) → (⟨S1600000x1, .i32⟩ : BufTy).Contents (Elt F)),
    binary main_v65 main_v79 main_v80 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v73 main_v80 main_v81 (mulf : (⟨S1600000, .f32⟩ : BufTy).Contents (Elt F) → (⟨S1600000, .f32⟩ : BufTy).Contents (Elt F) → (⟨S1600000, .f32⟩ : BufTy).Contents (Elt F)),
    nullary main_c_17 (constantI S_ 32 0#32),
    unary main_c_17 main_v82 (broadcastInDim S1600000 ![] bcast_S_S1600000 : (⟨S_, .i32⟩ : BufTy).Contents (Elt F) → (⟨S1600000, .i32⟩ : BufTy).Contents (Elt F)),
    binary main_v56 main_v82 main_v83 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v84 (broadcastInDim S1600000 ![] bcast_S_S1600000 : (⟨S_, .i32⟩ : BufTy).Contents (Elt F) → (⟨S1600000, .i32⟩ : BufTy).Contents (Elt F)),
    binary main_v56 main_v84 main_v85 (addi : (⟨S1600000, .i32⟩ : BufTy).Contents (Elt F) → (⟨S1600000, .i32⟩ : BufTy).Contents (Elt F) → (⟨S1600000, .i32⟩ : BufTy).Contents (Elt F)),
    ternary main_v83 main_v85 main_v56 main_v86 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v86 main_v87 (broadcastInDim S1600000x1 ![0] bcast_S1600000_S1600000x1_0 : (⟨S1600000, .i32⟩ : BufTy).Contents (Elt F) → (⟨S1600000x1, .i32⟩ : BufTy).Contents (Elt F)),
    binary main_v52 main_v87 main_v88 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v81 main_v89 (broadcastInDim S1600000x1 ![0] bcast_S1600000_S1600000x1_0 : (⟨S1600000, .f32⟩ : BufTy).Contents (Elt F) → (⟨S1600000x1, .f32⟩ : BufTy).Contents (Elt F)),
    unary main_v89 main_v90 (broadcastInDim S1600000x64 ![0, 1] bcast_S1600000x1_S1600000x64_0_1 : (⟨S1600000x1, .f32⟩ : BufTy).Contents (Elt F) → (⟨S1600000x64, .f32⟩ : BufTy).Contents (Elt F)),
    binary main_v88 main_v90 main_v91 (mulf : (⟨S1600000x64, .f32⟩ : BufTy).Contents (Elt F) → (⟨S1600000x64, .f32⟩ : BufTy).Contents (Elt F) → (⟨S1600000x64, .f32⟩ : BufTy).Contents (Elt F)),
    nullary main_cst_19 (constant S_ .f32 0x00000000#32),
    unary main_cst_19 main_v92 (broadcastInDim S100000x64 ![] bcast_S_S100000x64 : (⟨S_, .f32⟩ : BufTy).Contents (Elt F) → (⟨S100000x64, .f32⟩ : BufTy).Contents (Elt F)),
    unary main_v54 main_v93 (broadcastInDim S1600000x1 ![0] bcast_S1600000_S1600000x1_0 : (⟨S1600000, .i32⟩ : BufTy).Contents (Elt F) → (⟨S1600000x1, .i32⟩ : BufTy).Contents (Elt F)),
    ternary main_v92 main_v93 main_v91 main_v94 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v65 main_v65 main_v95 (mulf : (⟨S100000, .f32⟩ : BufTy).Contents (Elt F) → (⟨S100000, .f32⟩ : BufTy).Contents (Elt F) → (⟨S100000, .f32⟩ : BufTy).Contents (Elt F)),
    unary main_v95 main_v96 (broadcastInDim S100000x1 ![0] bcast_S100000_S100000x1_0 : (⟨S100000, .f32⟩ : BufTy).Contents (Elt F) → (⟨S100000x1, .f32⟩ : BufTy).Contents (Elt F)),
    unary main_v96 main_v97 (broadcastInDim S100000x64 ![0, 1] bcast_S100000x1_S100000x64_0_1 : (⟨S100000x1, .f32⟩ : BufTy).Contents (Elt F) → (⟨S100000x64, .f32⟩ : BufTy).Contents (Elt F)),
    binary main_v52 main_v97 main_v98 (mulf : (⟨S100000x64, .f32⟩ : BufTy).Contents (Elt F) → (⟨S100000x64, .f32⟩ : BufTy).Contents (Elt F) → (⟨S100000x64, .f32⟩ : BufTy).Contents (Elt F)),
    binary main_v94 main_v98 main_v99 (addf : (⟨S100000x64, .f32⟩ : BufTy).Contents (Elt F) → (⟨S100000x64, .f32⟩ : BufTy).Contents (Elt F) → (⟨S100000x64, .f32⟩ : BufTy).Contents (Elt F)),
    unary main_arg4 main_v100 (broadcastInDim S1x64 ![1] bcast_S64_S1x64_1 : (⟨S64, .f32⟩ : BufTy).Contents (Elt F) → (⟨S1x64, .f32⟩ : BufTy).Contents (Elt F)),
    unary main_v100 main_v101 (broadcastInDim S100000x64 ![0, 1] bcast_S1x64_S100000x64_0_1 : (⟨S1x64, .f32⟩ : BufTy).Contents (Elt F) → (⟨S100000x64, .f32⟩ : BufTy).Contents (Elt F)),
    binary main_v99 main_v101 main_v102 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0xFF800000#32),
    TRef.binary (TRef.of (T := ⟨S100000x64, .f32⟩) main_v102) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v102) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v103) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 4000000 in
/-- Every weakly fair execution of the reference terminates; the result buffer ends at the fold of the operations
    over the launch memory, and each argument buffer at what it was launched with. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103) = after (ops (F := F)) (launchContents m c) (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v103,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.Line

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibMatmulRows.lean ====
/-
  The product of an [M, K] array with a [K, N] array, read at one entry.

  Both spellings of the product contract the left operand's second axis with the right operand's first and keep the
  left operand's rows and the right operand's columns as the result's two axes.  On the extended reals the entry in
  row p and column q is then the sum over the shared coordinate k of (left at (p, k)) times (right at (k, q)) — for
  the kernel's product into a zero accumulator and for the host's general product alike, whatever M, K and N are.
  A product computed a block of rows at a time therefore has the same entries as the product of the whole arrays.
-/
import proofs.«138203_j57440892616779_1_alg».proof.Proof.LibDotRead

noncomputable section

namespace Cert.MatmulRows

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := Cert.DotRead.contr_rank_one d hlc

include hlc in
theorem contr_size : d.contr.size ⟨0, by rw [contr_rank d hlc]; exact Nat.one_pos⟩ = K :=
  Cert.DotRead.contr_size_one d hlc

include hlc hln hlb in
/-- The left operand is read in the result's row, at the shared coordinate. -/
theorem lhs_read (p : Fin M) (q : Fin N) (k : Fin K) :
    d.lhsIdx (ix2 p q) ((contrEquiv1 d K (contr_rank d hlc) (contr_size d hlc)).symm k) = ix2 p k := by
  funext a
  apply Fin.ext
  match a with
  | ⟨0, _⟩ =>
    exact Cert.DotRead.lhs_free_val d (ix2 p q) _ 0 (by rw [hlb]; exact List.not_mem_nil) (by rw [hln]; exact List.mem_singleton.mpr rfl)
      0 (by rw [hlb, hln]; rfl)
  | ⟨1, _⟩ => exact Cert.DotRead.lhs_contr_val d K (contr_rank d hlc) (contr_size d hlc) hlc (ix2 p q) k

include hlc hrc hln hrn hlb hrb in
/-- The right operand is read at the shared coordinate, in the result's column. -/
theorem rhs_read (p : Fin M) (q : Fin N) (k : Fin K) :
    d.rhsIdx (ix2 p q) ((contrEquiv1 d K (contr_rank d hlc) (contr_size d hlc)).symm k) = ix2 k q := by
  funext a
  apply Fin.ext
  match a with
  | ⟨0, _⟩ => exact Cert.DotRead.rhs_contr_val d K (contr_rank d hlc) (contr_size d hlc) hrc (ix2 p q) k
  | ⟨1, _⟩ =>
    exact Cert.DotRead.rhs_free_val d (ix2 p q) _ 1 (by rw [hrb]; exact List.not_mem_nil) (by rw [hrn]; exact List.mem_singleton.mpr rfl)
      1 (by rw [hlb, hln, hrn]; rfl)

include hlc hrc hln hrn hlb hrb in
/-- The kernel's product into a zero accumulator, entry (p, q). -/
theorem matmul_zero_ix2 {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, lhs (ix2 p k) * rhs (ix2 k q) :=
  Cert.DotRead.matmul_zero_read d K (contr_rank d hlc) (contr_size d hlc) prec lhs rhs (ix2 p q) (fun k => ix2 p k) (fun k => ix2 k q)
    (lhs_read d hlc hln hlb p q) (rhs_read d hlc hrc hln hrn hlb hrb p q)

include hlc hrc hln hrn hlb hrb in
/-- The host's general product, entry (p, q). -/
theorem dotGeneral_ix2 {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q) = ∑ k : Fin K, lhs (ix2 p k) * rhs (ix2 k q) :=
  Cert.DotRead.dotGeneral_read d K (contr_rank d hlc) (contr_size d hlc) prec sched lhs rhs (ix2 p q) (fun k => ix2 p k) (fun k => ix2 k q)
    (lhs_read d hlc hln hlb p q) (rhs_read d hlc hrc hln hrn hlb hrb p q)

end Cert.MatmulRows

end
-- ==== Proof.RegionProducts.lean ====
/-
  The two pipelined regions are products of arrays, computed a block of rows at a time.

  Region 0 multiplies the [100000, 512] array by the [512, 128] array, 2000 rows per grid point over 50 points;
  region 1 multiplies a [100000, 128] array by the [128, 64] array, 4000 rows per point over 25 points.  At each
  point the body loads a block of rows of the left array and the whole right array, changes their float format
  (the identity on the extended reals), multiplies them into a zero accumulator and stores the block of the result.
  Entry (p, q) of a block's product is the sum over k of (block at (p, k)) · (right at (k, q)), and row p of block t
  is row t · 2000 + p (or t · 4000 + p) of the array: so each block written back is that block of the product of
  the WHOLE arrays.  The blocks tile the result (row r lies in block r / 2000, or r / 4000), hence the result array
  ends holding the whole product, and the two input arrays, which are never written back, end as they were found.
-/
import proofs.«138203_j57440892616779_1_alg».proof.Proof.Gen.KernelIdeal.Frame
import proofs.«138203_j57440892616779_1_alg».proof.Proof.LibMatmulRows
import Idealize.ShloMosaic.Lib.Pipeline.Value
import Idealize.ShloMosaic.Lib.ValueIdx

set_option maxRecDepth 16384

noncomputable section

namespace Cert.KernelIdeal.Product

open Cert.KernelIdeal Cert.KernelIdeal.Gen Idealize.ShloMosaic Idealize.ShloMosaic.TcCoe Idealize.ShloMosaic.ValueIdx Idealize.SL.Sem
open Idealize.ShloMosaic.Pipeline (Dat Cfg Window)

/-- The product of an [M, K] array with a [K, N] array on the extended reals: the entry in row `i 0` and column
    `i 1` is the sum over k of (left at (i 0, k)) · (right at (k, i 1)). -/
def rowsTimes {M K N : Nat} (a : FVec Ideal (⟨2, ![M, K]⟩ : Shape) .f32) (w : FVec Ideal (⟨2, ![K, N]⟩ : Shape) .f32) :
    FVec Ideal (⟨2, ![M, N]⟩ : Shape) .f32 :=
  fun i => ∑ k : Fin K, a (ix2 (i 0) k) * w (ix2 k (i 1))

theorem origin2 : (![0, 0] : Fin 2 → Nat) = fun _ => 0 := funext fun a => by fin_cases a <;> rfl

variable (V : (c : Dev nD) → (b : Ref sig .tc) → Buf (Elt Ideal) ((c : Thread nD τ).loc b))

/-! ## Region 0 -/

/-- The body's stored value at an entry: the format changes are the identity, the product into zero is the sum. -/
theorem stored0_at (x0 : Vec Ideal S2000x512 .f32) (x1 : Vec Ideal S512x128 .f32) (j : S2000x128.Idx) :
    k0_pay1 (F := Ideal) x0 x1 j = ∑ k : Fin 512, x0 (ix2 (j 0) k) * x1 (ix2 k (j 1)) := by
  rw [eq_ix2 j]
  unfold k0_pay1
  exact Cert.MatmulRows.matmul_zero_ix2 dot_S2000x512_S512x128_S2000x128_1_0_0_1_n_n rfl rfl rfl rfl rfl rfl none _ _ (j 0) (j 1)

/-- The printed index maps over the grid: the left array's block and the result's block at point t are both block t
    of rows and span all columns; the right array's only block is the whole array. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0 (c : Dev nD) (t : Fin cfg0.N) :
    (dat0 V c).flushed 2 t = ((cfg0.win 2).blk t).view.read (Elt Ideal) (rowsTimes (V c main_arg0) (V c main_arg1)) := by
  show (cfg0.win 2).cut (grid0.coords t) ((dat0 V c).after 2 t) = _
  rw [after0_2]
  unfold out0_2
  rw [View.canon_unit_zero origin2]
  simp only [View.ld_unit_zero (S := S2000x512) origin2, View.ld_unit_zero (S := S512x128) origin2]
  obtain ⟨e0, e1, e2, e3, e4, e5⟩ := index_maps0 t
  funext j
  refine (stored0_at (iblk0 V c 0 t) (iblk0 V c 1 t) j).trans ?_
  show _ = rowsTimes (V c main_arg0) (V c main_arg1) (((cfg0.win 2).blk t).view.emb j)
  unfold rowsTimes
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  have e0 : iblk0 V c 0 t (ix2 (j 0) k) = (V c main_arg0 : FVec Ideal S100000x512 .f32) (ix2 ((((cfg0.win 2).blk t).view.emb j) 0) k) :=
    congrArg (V c main_arg0 : FVec Ideal S100000x512 .f32) h0
  have e1 : iblk0 V c 1 t (ix2 k (j 1)) = (V c main_arg1 : FVec Ideal S512x128 .f32) (ix2 k ((((cfg0.win 2).blk t).view.emb j) 1)) :=
    congrArg (V c main_arg1 : FVec Ideal S512x128 .f32) h1
  rw [e0, e1]

/-- An index of the result array is in point t's block iff each coordinate is in the block's range on its axis. -/
theorem mem_block0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row r of the result lies in the block of point r / 2000. -/
theorem covered0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 2000, by show _ < 50; omega⟩, flush0_2 _, ?_⟩
  rw [mem_block0]
  obtain ⟨-, -, -, -, e4, e5⟩ := index_maps0 ⟨(i 0).val / 2000, by show _ < 50; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- Region 0's result array ends holding the whole product of its two input arrays as the region found them. -/
theorem result0 (c : Dev nD) : (dat0 V c).arrAt 2 cfg0.N = rowsTimes (V c main_arg0) (V c main_arg1) :=
  (dat0 V c).arrAt_eq_of_cover 2 (rowsTimes (V c main_arg0) (V c main_arg1)) (fun t _ => flushed0 V c t) covered0

/-- Region 0's input arrays end as the region found them. -/
theorem left0 (c : Dev nD) : (dat0 V c).arrAt 0 cfg0.N = V c main_arg0 := (dat0 V c).arrAt_in 0 rfl cfg0.N
theorem right0 (c : Dev nD) : (dat0 V c).arrAt 1 cfg0.N = V c main_arg1 := (dat0 V c).arrAt_in 1 rfl cfg0.N

/-! ## Region 1 -/

/-- The body's stored value at an entry: the cast of the block onto its own shape and the format changes are the
    identity, the product into zero is the sum. -/
theorem stored1_at (x0 : Vec Ideal S4000x128 .f32) (x1 : Vec Ideal S128x64 .f32) (j : S4000x64.Idx) :
    k1_pay1 (F := Ideal) x0 x1 j = ∑ k : Fin 128, x0 (ix2 (j 0) k) * x1 (ix2 k (j 1)) := by
  have e : shapeCast S4000x128 x0 shapeCasts_S4000x128_S4000x128 = x0 := shapeCast_self x0 _
  rw [eq_ix2 j]
  unfold k1_pay1
  rw [e]
  exact Cert.MatmulRows.matmul_zero_ix2 dot_S4000x128_S128x64_S4000x64_1_0_0_1_n_n rfl rfl rfl rfl rfl rfl none _ _ (j 0) (j 1)

/-- The printed index maps over the grid: the left array's block and the result's block at point t are both block t
    of rows and span all columns; the right array's only block is the whole array. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product. -/
theorem flushed1 (c : Dev nD) (t : Fin cfg1.N) :
    (dat1 V c).flushed 2 t = ((cfg1.win 2).blk t).view.read (Elt Ideal) (rowsTimes (V c main_v51) (V c main_arg3)) := by
  show (cfg1.win 2).cut (grid1.coords t) ((dat1 V c).after 2 t) = _
  rw [after1_2]
  unfold out1_2
  rw [View.canon_unit_zero origin2]
  simp only [View.ld_unit_zero (S := S4000x128) origin2, View.ld_unit_zero (S := S128x64) origin2]
  obtain ⟨e0, e1, e2, e3, e4, e5⟩ := index_maps1 t
  funext j
  refine (stored1_at (iblk1 V c 0 t) (iblk1 V c 1 t) j).trans ?_
  show _ = rowsTimes (V c main_v51) (V c main_arg3) (((cfg1.win 2).blk t).view.emb j)
  unfold rowsTimes
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 128 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  have e0 : iblk1 V c 0 t (ix2 (j 0) k) = (V c main_v51 : FVec Ideal S100000x128 .f32) (ix2 ((((cfg1.win 2).blk t).view.emb j) 0) k) :=
    congrArg (V c main_v51 : FVec Ideal S100000x128 .f32) h0
  have e1 : iblk1 V c 1 t (ix2 k (j 1)) = (V c main_arg3 : FVec Ideal S128x64 .f32) (ix2 k ((((cfg1.win 2).blk t).view.emb j) 1)) :=
    congrArg (V c main_arg3 : FVec Ideal S128x64 .f32) h1
  rw [e0, e1]

/-- An index of the result array is in point t's block iff each coordinate is in the block's range on its axis. -/
theorem mem_block1 (t : Fin cfg1.N) (i : S100000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v52).slice (win1_2.rect t)).set ↔ _
  rw [View.set_slice_whole, Rect.mem_set_unit]
  exact Iff.rfl

/-- Row r of the result lies in the block of point r / 4000. -/
theorem covered1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  refine ⟨⟨(i 0).val / 4000, by show _ < 25; omega⟩, flush1_2 _, ?_⟩
  rw [mem_block1]
  obtain ⟨-, -, -, -, e4, e5⟩ := index_maps1 ⟨(i 0).val / 4000, by show _ < 25; omega⟩
  intro a
  match a with
  | ⟨0, _⟩ =>
    show win1_2.index _ (0 : Fin 2) * 4000 ≤ (i 0).val ∧ (i 0).val < win1_2.index _ (0 : Fin 2) * 4000 + 4000
    rw [e4]; show (i 0).val / 4000 * 4000 ≤ (i 0).val ∧ (i 0).val < (i 0).val / 4000 * 4000 + 4000; omega
  | ⟨1, _⟩ =>
    show win1_2.index _ (1 : Fin 2) * 128 ≤ (i 1).val ∧ (i 1).val < win1_2.index _ (1 : Fin 2) * 64 + 64
    rw [e5]; omega

/-- Region 1's result array ends holding the whole product of its two input arrays as the region found them. -/
theorem result1 (c : Dev nD) : (dat1 V c).arrAt 2 cfg1.N = rowsTimes (V c main_v51) (V c main_arg3) :=
  (dat1 V c).arrAt_eq_of_cover 2 (rowsTimes (V c main_v51) (V c main_arg3)) (fun t _ => flushed1 V c t) covered1

/-- Region 1's input arrays end as the region found them. -/
theorem left1 (c : Dev nD) : (dat1 V c).arrAt 0 cfg1.N = V c main_v51 := (dat1 V c).arrAt_in 0 rfl cfg1.N
theorem right1 (c : Dev nD) : (dat1 V c).arrAt 1 cfg1.N = V c main_arg3 := (dat1 V c).arrAt_in 1 rfl cfg1.N

end Cert.KernelIdeal.Product

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.Join.lean ====
/-
  The kernel's result and the reference's result are the same array.

  Both programs are the same line of host operations — a two-layer graph convolution (degrees, normalisation,
  gather, scale, scatter-add, self loop, bias), a relu between the layers and a log-softmax at the end — except for
  the two dense products: the reference computes each as one general product of whole arrays, the kernel in a
  pipelined region a block of rows at a time.  A region rewrites the buffer contents exactly as one operation
  "result := product of the two operands" would, so the kernel's ten segments fold the launch memory like one line of
  operations; and on the extended reals the host's general product is the same sum over the shared coordinate as the
  region's product.  Reading the result buffer back through both lines, operation by operation down to the argument
  buffers, gives the same expression of the arguments on both sides, and the arguments agree.
-/
import proofs.«138203_j57440892616779_1_alg».proof.Proof.Gen.KernelIdeal.Frame
import proofs.«138203_j57440892616779_1_alg».proof.Proof.RegionProducts
import proofs.«138203_j57440892616779_1_alg».proof.Proof.ReferenceRun
import proofs.«138203_j57440892616779_1_alg».proof.Proof.LibRegionOp
import proofs.«138203_j57440892616779_1_alg».proof.Proof.LibLineEval

noncomputable section

namespace Cert.Join

open Idealize.ShloMosaic Idealize.ShloMosaic.TcCoe Idealize.ShloMosaic.ValueIdx Idealize.SL.Sem Idealize.ShloMosaic.StableHlo
open Cert.KernelIdeal.Product (rowsTimes)

/-! ## The reference's general products are the sums -/

theorem dot0_eq (a : FVec Ideal Cert.ReferenceIdeal.S100000x512 .f32) (w : FVec Ideal Cert.ReferenceIdeal.S512x128 .f32) :
    Host.dotGeneral Cert.ReferenceIdeal.dot_S100000x512_S512x128_S100000x128_1_0_0_1_n_n none a w = rowsTimes a w := by
  funext i
  show _ = ∑ k : Fin 512, a (ix2 (i 0) k) * w (ix2 k (i 1))
  conv_lhs => rw [eq_ix2 i]
  exact Cert.MatmulRows.dotGeneral_ix2 Cert.ReferenceIdeal.dot_S100000x512_S512x128_S100000x128_1_0_0_1_n_n rfl rfl rfl rfl rfl rfl none _ a w (i 0) (i 1)

theorem dot1_eq (a : FVec Ideal Cert.ReferenceIdeal.S100000x128 .f32) (w : FVec Ideal Cert.ReferenceIdeal.S128x64 .f32) :
    Host.dotGeneral Cert.ReferenceIdeal.dot_S100000x128_S128x64_S100000x64_1_0_0_1_n_n none a w = rowsTimes a w := by
  funext i
  show _ = ∑ k : Fin 128, a (ix2 (i 0) k) * w (ix2 k (i 1))
  conv_lhs => rw [eq_ix2 i]
  exact Cert.MatmulRows.dotGeneral_ix2 Cert.ReferenceIdeal.dot_S100000x128_S128x64_S100000x64_1_0_0_1_n_n rfl rfl rfl rfl rfl rfl none _ a w (i 0) (i 1)

/-! ## The kernel's regions as operations -/

section Kernel

open Cert.KernelIdeal Cert.KernelIdeal.Gen

variable (m : (ℓ : Loc nD τ sig) → Buf (Elt Ideal) ℓ) (ρ : Dev nD → PrngReg)

/-- Region 0 as an operation: the first product, of the first two arguments. -/
def prod0 : HloOp τ sig (Elt Ideal) :=
  StableHlo.binary main_arg0 main_arg1 main_v0 ((fun a w => rowsTimes a w) : (⟨S100000x512, .f32⟩ : BufTy).Contents (Elt Ideal) → (⟨S512x128, .f32⟩ : BufTy).Contents (Elt Ideal) → (⟨S100000x128, .f32⟩ : BufTy).Contents (Elt Ideal))

/-- Region 1 as an operation: the second product, of the first layer's output and the fourth argument. -/
def prod1 : HloOp τ sig (Elt Ideal) :=
  StableHlo.binary main_v51 main_arg3 main_v52 ((fun a w => rowsTimes a w) : (⟨S100000x128, .f32⟩ : BufTy).Contents (Elt Ideal) → (⟨S128x64, .f32⟩ : BufTy).Contents (Elt Ideal) → (⟨S100000x64, .f32⟩ : BufTy).Contents (Elt Ideal))

/-- Region 0 leaves what its operation leaves. -/
theorem W1_eq (c : Dev nD) : W1 m ρ c = (prod0).result (W0 m ρ c) := by
  unfold W1
  refine Cert.RegionOp.withArrays_eq_result spec0 launch0.win.arr_inj c (W0 m ρ c) _ prod0 2 rfl ?_ ?_
  · show (dat0 (V0 m ρ) c).arrAt 2 cfg0.N = (prod0).result (W0 m ρ c) (Proc.devRef .tc main_v0)
    rw [Cert.KernelIdeal.Product.result0]
    unfold prod0
    exact (StableHlo.binary_result main_arg0 main_arg1 main_v0 _ _ _ _ (W0 m ρ c)).symm
  · intro w hw
    match w, hw with
    | ⟨0, _⟩, _ => exact Cert.KernelIdeal.Product.left0 (V0 m ρ) c
    | ⟨1, _⟩, _ => exact Cert.KernelIdeal.Product.right0 (V0 m ρ) c
    | ⟨2, _⟩, h => exact absurd rfl h

/-- Region 1 leaves what its operation leaves. -/
theorem W6_eq (c : Dev nD) : W6 m ρ c = (prod1).result (W5 m ρ c) := by
  unfold W6
  refine Cert.RegionOp.withArrays_eq_result spec1 launch1.win.arr_inj c (W5 m ρ c) _ prod1 2 rfl ?_ ?_
  · show (dat1 (V5 m ρ) c).arrAt 2 cfg1.N = (prod1).result (W5 m ρ c) (Proc.devRef .tc main_v52)
    rw [Cert.KernelIdeal.Product.result1]
    unfold prod1
    exact (StableHlo.binary_result main_v51 main_arg3 main_v52 _ _ _ _ (W5 m ρ c)).symm
  · intro w hw
    match w, hw with
    | ⟨0, _⟩, _ => exact Cert.KernelIdeal.Product.left1 (V5 m ρ) c
    | ⟨1, _⟩, _ => exact Cert.KernelIdeal.Product.right1 (V5 m ρ) c
    | ⟨2, _⟩, h => exact absurd rfl h

end Kernel

/-! ## The two results -/

section Results

open Cert.KernelIdeal Cert.KernelIdeal.Gen

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

set_option maxRecDepth 65536 in
set_option maxHeartbeats 400000000 in
/-- From memories that agree on the seven arguments, the reference's line and the kernel's segments leave the same
    array in the result buffer: read back operation by operation, both are the same expression of the arguments. -/
theorem result_eq (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    after (Cert.ReferenceIdeal.Line.ops (F := Ideal)) (launchContents m' c) (Proc.devRef .tc Cert.ReferenceIdeal.main_v103)
      = W10 m ρ c (Proc.devRef .tc main_v103) := by
  show _ = after hostOps2_3 (after hostOps2_2 (after hostOps2_1 (after hostOps2 (W6 m ρ c)))) (Proc.devRef .tc main_v103)
  rw [W6_eq]
  show _ = after hostOps2_3 (after hostOps2_2 (after hostOps2_1 (after hostOps2 ((prod1).result
    (after hostOps1_3 (after hostOps1_2 (after hostOps1_1 (after hostOps1 (W1 m ρ c))))))))) (Proc.devRef .tc main_v103)
  rw [W1_eq]
  unfold prod0 prod1
  eval_line
  simp only [dot0_eq, dot1_eq]
  have e0 : launchContents m' c (Proc.devRef .tc Cert.ReferenceIdeal.main_arg0) = W0 m ρ c (Proc.devRef .tc main_arg0) := h0
  have e1 : launchContents m' c (Proc.devRef .tc Cert.ReferenceIdeal.main_arg1) = W0 m ρ c (Proc.devRef .tc main_arg1) := h1
  have e2 : launchContents m' c (Proc.devRef .tc Cert.ReferenceIdeal.main_arg2) = W0 m ρ c (Proc.devRef .tc main_arg2) := h2
  have e3 : launchContents m' c (Proc.devRef .tc Cert.ReferenceIdeal.main_arg3) = W0 m ρ c (Proc.devRef .tc main_arg3) := h3
  have e4 : launchContents m' c (Proc.devRef .tc Cert.ReferenceIdeal.main_arg4) = W0 m ρ c (Proc.devRef .tc main_arg4) := h4
  have e5 : launchContents m' c (Proc.devRef .tc Cert.ReferenceIdeal.main_arg5) = W0 m ρ c (Proc.devRef .tc main_arg5) := h5
  have e6 : launchContents m' c (Proc.devRef .tc Cert.ReferenceIdeal.main_arg6) = W0 m ρ c (Proc.devRef .tc main_arg6) := h6
  rw [e0, e1, e2, e3, e4, e5, e6]
  rfl

end Results

end Cert.Join

end
-- ==== Proof.lean ====
/-
  A two-layer graph convolution over 100000 nodes and 1600000 weighted edges, followed by a row-wise log-softmax:
  the kernel against its reference, on the extended reals.

  Each layer multiplies the node features by a weight array, scales every edge's source row by
  dinv[row] · w · dinv[col] (dinv the reciprocal square root of one plus the weighted in-degree, taken as 0 where that
  is not positive), adds the scaled rows up per target node, adds the self-loop term h · dinv² and the bias.  The kernel
  and the reference spell all of this with the same host operations, in the same order, on the same literals; they
  differ only in the two dense products, which the reference computes as one general product each and the kernel in a
  pipelined region, 2000 (then 4000) rows per grid point, after changing the operands' float format — the identity on
  the extended reals.  A block of rows of a product is the product of that block of rows, the blocks tile the result,
  and the host's general product is the same sum over the shared coordinate: so the two programs compute the same
  expression of their arguments, and no finiteness of the inputs is used.

  The three programs run (the two kernels by their pipelines' frames, the reference as a straight line of host
  operations), the idealization rewrote nothing, and the two idealized programs end with equal results.
-/
import proofs.«138203_j57440892616779_1_alg».proof.Defs
import proofs.«138203_j57440892616779_1_alg».proof.Proof.Gen.Kernel
import proofs.«138203_j57440892616779_1_alg».proof.Proof.Gen.Kernel.Frame
import proofs.«138203_j57440892616779_1_alg».proof.Proof.Gen.KernelIdeal
import proofs.«138203_j57440892616779_1_alg».proof.Proof.Gen.KernelIdeal.Frame
import proofs.«138203_j57440892616779_1_alg».proof.Proof.Gen.ReferenceIdeal
import proofs.«138203_j57440892616779_1_alg».proof.Proof.Gen.Pre_finite_inputs
import proofs.«138203_j57440892616779_1_alg».proof.Proof.KernelRun
import proofs.«138203_j57440892616779_1_alg».proof.Proof.ReferenceRun
import proofs.«138203_j57440892616779_1_alg».proof.Proof.Join
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The idealized reference is a straight line of host operations, none of which writes an argument. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Line.run (F := Ideal) m ρ)

/-- From memories agreeing on the arguments both idealized programs end with the same array in the result buffer:
    what the kernel's ten segments leave there, which is what the reference's line leaves there. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W10 m ρ c (Proc.devRef .tc Cert.KernelIdeal.main_v103),
    Cert.KernelIdeal.RunValue.run_result (F := Ideal) m ρ, ?_⟩
  refine (θ_run Cert.ReferenceIdeal.defs _ _).mono (fun _ h c => ⟨(h c).1.trans ?_, (h c).2⟩)
    (Cert.ReferenceIdeal.Line.run (F := Ideal) m' ρ')
  obtain ⟨h0, h1, h2, h3, h4, h5, h6⟩ := hagree c
  exact Cert.Join.result_eq m ρ m' c h0 h1 h2 h3 h4 h5 h6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
